-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x1600000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 70
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S50000x64, .f32⟩
  | .hbm, ⟨25, _⟩ => ⟨S1600000x1, .i32⟩
  | .hbm, ⟨26, _⟩ => ⟨S50000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S50000x128, .f32⟩
  | .hbm, ⟨52, _⟩ => ⟨S1600000x1, .i32⟩
  | .hbm, ⟨53, _⟩ => ⟨S50000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S50000, .f32⟩
  | .hbm, ⟨58, _⟩ => ⟨S1600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S1x64, .f32⟩
  | .hbm, ⟨69, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S5000x64_S64x128_S5000x128_1_0_0_1_n_n_wf : DotDims.WF S5000x64 S64x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S50000x64, .f32⟩
  | .hbm, ⟨25, _⟩ => ⟨S1600000x1, .i32⟩
  | .hbm, ⟨26, _⟩ => ⟨S50000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S50000x128, .f32⟩
  | .hbm, ⟨59, _⟩ => ⟨S1600000x1, .i32⟩
  | .hbm, ⟨60, _⟩ => ⟨S50000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S50000, .f32⟩
  | .hbm, ⟨65, _⟩ => ⟨S1600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x128_S50000x128_1_0_0_1_n_n_wf : DotDims.WF S50000x64 S64x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with its result array named.

  The program is six segments in order: a stretch of host operations, the first dense call, a second stretch, the
  second dense call, a one-operation stretch, the third dense call. The buffer contents at the seven boundaries are a
  fold from the launch memory: a stretch takes the contents to what its operations leave, a call replaces its arrays by
  what its write-backs leave and keeps every other buffer. Every weakly fair execution terminates without fault in a
  state whose unscoped buffers hold the last boundary's contents; so the result buffer holds the last boundary's value
  there, and each of the ten argument buffers what it was launched with.

  Then the fold read at the buffers the later chain needs: the result buffer is the third call's output array; the
  third call's row operand is the second call's output array (the stretch between writes another buffer); the second
  call's row operand is the first call's output array; and each weight argument, when its call is entered, still holds
  its launch contents.
-/
import proofs.«123377_j5153960755630_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

-- the launch theorem's implicit arguments are found by unifying its conclusion with this one, which takes unfolding
-- plain definitions in a metavariable's type
set_option backward.isDefEq.respectTransparency.types false in
/-- From any memory with zero counters, every weakly fair execution of the program on the TensorCores terminates,
    nothing faulting, and in every final state the result buffer holds the last boundary's contents and the ten
    argument buffers are as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

/-! ## The fold read at the arrays that carry the value from call to call -/

/-- The result buffer at the last boundary is the third call's output array after its last point. -/
theorem out_eq (c : Dev nD) : W6 m ρ c (Proc.devRef .tc main_v47) = (dat2 (V5 m ρ) c).arrAt 3 cfg2.N :=
  W6_arr m ρ c 3

/-- The third call's row operand is the second call's output array after its last point: the one host operation
    between the two calls writes another buffer. -/
theorem v45_eq (c : Dev nD) : V5 m ρ c main_v45 = (dat1 (V3 m ρ) c).arrAt 5 cfg1.N :=
  calc V5 m ρ c main_v45
    _ = W4 m ρ c (Proc.devRef .tc main_v45) := StableHlo.after_of_forall_not_mem (b := Proc.devRef .tc main_v45) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V3 m ρ) c).arrAt 5 cfg1.N := W4_arr m ρ c 5

/-- The second call's row operand is the first call's output array after its last point: no host operation between
    the two calls writes it. -/
theorem v24_eq (c : Dev nD) : V3 m ρ c main_v24 = (dat0 (V1 m ρ) c).arrAt 5 cfg0.N :=
  calc V3 m ρ c main_v24
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5

/-! ## The weight arguments as each call finds them -/

/-- Argument 8 as the third call finds it: it ends as launched, and the third call only reads it. -/
theorem arg8_at_V5 (c : Dev nD) : V5 m ρ c main_arg8 = m ((c : Thread nD τ).loc main_arg8) :=
  calc V5 m ρ c main_arg8
    _ = W6 m ρ c (Proc.devRef .tc main_arg8) :=
        ((W6_arr m ρ c 1).trans (((dat2 (V5 m ρ) c).arrAt_in 1 rfl _).trans (A_eq2 (V5 m ρ) c 1))).symm
    _ = m ((c : Thread nD τ).loc main_arg8) := W6_main_arg8 m ρ c

/-- Argument 5 as the second call finds it: neither host stretch writes it and it is no array of the first call. -/
theorem arg5_at_V3 (c : Dev nD) : V3 m ρ c main_arg5 = m ((c : Thread nD τ).loc main_arg5) :=
  calc V3 m ρ c main_arg5
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 7 as the second call finds it: neither host stretch writes it and it is no array of the first call. -/
theorem arg7_at_V3 (c : Dev nD) : V3 m ρ c main_arg7 = m ((c : Thread nD τ).loc main_arg7) :=
  calc V3 m ρ c main_arg7
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 0 as the first call finds it: the first host stretch does not write it. -/
theorem arg0_at_V1 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 2 as the first call finds it: the first host stretch does not write it. -/
theorem arg2_at_V1 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 4 as the first call finds it: the first host stretch does not write it. -/
theorem arg4_at_V1 (c : Dev nD) : V1 m ρ c main_arg4 = m ((c : Thread nD τ).loc main_arg4) :=
  calc V1 m ρ c main_arg4
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.KernelRun

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibSageLayer.lean ====
/-
  A mean-aggregating graph layer's dense part and a linear head, read at one entry, on the extended reals.

  `sageAt A X Wl Wr b p q = max((Σ k, A(p,k) · Wl(k,q) + Σ k, X(p,k) · Wr(k,q)) + b(q), 0)` is entry (p, q) of
  `max(A · Wl + X · Wr + b, 0)` (the aggregated neighbours `A` through the left weights, the node's own features `X`
  through the right weights, a bias along the columns, a rectifier), and `linAt H W b p q = Σ k, H(p,k) · W(k,q) + b(q)`
  is entry (p, q) of `H · W + b`. Each is reached two ways:
    * the vector unit's way — operands narrowed to bf16 (the identity on extended reals), matrix products into a zero
      accumulator, the two products added FIRST and the bias row (re-cast, repeated along the rows) added LAST,
      `maximumf` against a splat zero;
    * the host's way — `dot_general`, the bias vector placed as a row and repeated along the rows, added to the FIRST
      product BEFORE the second product is added, `maximum` against a broadcast zero.
  The two orders of the three summands agree because addition of extended reals is commutative and associative
  (`add_right_comm`): no finiteness is needed.
-/
import proofs.«123377_j5153960755630_1_alg».proof.Proof.LibHostRead
import Idealize.ShloMosaic.Lib.ValueLayout

noncomputable section

namespace Cert.LibSageLayer

open Idealize.ShloMosaic Idealize.ShloMosaic.ValueIdx Cert.LibHostRead

variable {M K N : ℕ}

/-- Entry (p, q) of `max((A · Wl + X · Wr) + b, 0)`, the bias a function of the column. -/
def sageAt (A X : (⟨2, ![M, K]⟩ : Shape).Idx → EReal) (Wl Wr : (⟨2, ![K, N]⟩ : Shape).Idx → EReal)
    (b : Fin N → EReal) (p : Fin M) (q : Fin N) : EReal :=
  max (((∑ k : Fin K, A (ix2 p k) * Wl (ix2 k q)) + ∑ k : Fin K, X (ix2 p k) * Wr (ix2 k q)) + b q) 0

/-- Entry (p, q) of `H · W + b`. -/
def linAt (H : (⟨2, ![M, K]⟩ : Shape).Idx → EReal) (W : (⟨2, ![K, N]⟩ : Shape).Idx → EReal)
    (b : Fin N → EReal) (p : Fin M) (q : Fin N) : EReal :=
  (∑ k : Fin K, H (ix2 p k) * W (ix2 k q)) + b q

/-- `max((A · Wl + X · Wr) + b, 0)` as an M × N array. -/
def sage (A X : (⟨2, ![M, K]⟩ : Shape).Idx → EReal) (Wl Wr : (⟨2, ![K, N]⟩ : Shape).Idx → EReal)
    (b : Fin N → EReal) : (⟨2, ![M, N]⟩ : Shape).Idx → EReal :=
  fun i => sageAt A X Wl Wr b ⟨(i 0).val, idx2_lt0 i⟩ ⟨(i 1).val, idx2_lt1 i⟩

/-- `H · W + b` as an M × N array. -/
def lin (H : (⟨2, ![M, K]⟩ : Shape).Idx → EReal) (W : (⟨2, ![K, N]⟩ : Shape).Idx → EReal)
    (b : Fin N → EReal) : (⟨2, ![M, N]⟩ : Shape).Idx → EReal :=
  fun i => linAt H W b ⟨(i 0).val, idx2_lt0 i⟩ ⟨(i 1).val, idx2_lt1 i⟩

theorem sage_ix2 (A X : (⟨2, ![M, K]⟩ : Shape).Idx → EReal) (Wl Wr : (⟨2, ![K, N]⟩ : Shape).Idx → EReal)
    (b : Fin N → EReal) (p : Fin M) (q : Fin N) : sage A X Wl Wr b (ix2 p q) = sageAt A X Wl Wr b p q := rfl

theorem lin_ix2 (H : (⟨2, ![M, K]⟩ : Shape).Idx → EReal) (W : (⟨2, ![K, N]⟩ : Shape).Idx → EReal)
    (b : Fin N → EReal) (p : Fin M) (q : Fin N) : lin H W b (ix2 p q) = linAt H W b p q := rfl

/-! ## The vector unit's way -/

/-- The vector unit's two-product rectified layer at an entry: the bias is the one row of `B`. -/
theorem vec_sage_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (a x : FVec Ideal ⟨2, ![M, K]⟩ .f32) (wl wr : FVec Ideal ⟨2, ![K, N]⟩ .f32) (B : FVec Ideal ⟨2, ![1, N]⟩ .f32) (p : Fin M) (q : Fin N) :
    maximumf (addf (addf
            (matmul d none (truncf .bf16 a hn) (truncf .bf16 wl hn) (constant ⟨2, ![M, N]⟩ .f32 0x00000000#32))
            (matmul d none (truncf .bf16 x hn) (truncf .bf16 wr hn) (constant ⟨2, ![M, N]⟩ .f32 0x00000000#32)))
          (broadcastTo ⟨2, ![M, N]⟩ (shapeCast ⟨2, ![1, N]⟩ B hs) hbt))
        (broadcast ⟨2, ![M, N]⟩ (Scalar.ofBits (F := Ideal) .f32 0x00000000#32)) (ix2 p q)
      = sageAt a x wl wr (fun c => B (ix2 (0 : Fin 1) c)) p q := by
  rw [maximumf_apply, addf_apply, addf_apply, broadcast_apply, shapeCast_self, broadcastTo_1b_ab_apply]
  show max ((FloatOps.matmul d none (truncf .bf16 a hn) (truncf .bf16 wl hn) (constant ⟨2, ![M, N]⟩ .f32 0x00000000#32) (ix2 p q)
        + FloatOps.matmul d none (truncf .bf16 x hn) (truncf .bf16 wr hn) (constant ⟨2, ![M, N]⟩ .f32 0x00000000#32) (ix2 p q)) + _)
      (Ideal.ofBits .f32 0x00000000#32) = _
  rw [matmul_plain_zero_apply d hd, matmul_plain_zero_apply d hd, Ideal.ofBits_zero_f32]
  rfl

/-- The vector unit's affine head at an entry. -/
theorem vec_lin_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (h : FVec Ideal ⟨2, ![M, K]⟩ .f32) (w : FVec Ideal ⟨2, ![K, N]⟩ .f32) (B : FVec Ideal ⟨2, ![1, N]⟩ .f32) (p : Fin M) (q : Fin N) :
    addf (matmul d none (truncf .bf16 h hn) (truncf .bf16 w hn) (constant ⟨2, ![M, N]⟩ .f32 0x00000000#32))
          (broadcastTo ⟨2, ![M, N]⟩ (shapeCast ⟨2, ![1, N]⟩ B hs) hbt) (ix2 p q)
      = linAt h w (fun c => B (ix2 (0 : Fin 1) c)) p q := by
  rw [addf_apply, shapeCast_self, broadcastTo_1b_ab_apply]
  show FloatOps.matmul d none (truncf .bf16 h hn) (truncf .bf16 w hn) (constant ⟨2, ![M, N]⟩ .f32 0x00000000#32) (ix2 p q) + _ = _
  rw [matmul_plain_zero_apply d hd]
  rfl

/-! ## The host's way -/

/-- The host's layer at an entry: the bias vector joins the first product before the second product is added. -/
theorem host_sage_apply (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1]) (hz : (⟨0, ![]⟩ : Shape).BroadcastsInDim ⟨2, ![M, N]⟩ ![])
    (A X : FVec Ideal ⟨2, ![M, K]⟩ .f32) (Wl Wr : FVec Ideal ⟨2, ![K, N]⟩ .f32) (b : FVec Ideal ⟨1, ![N]⟩ .f32) (p : Fin M) (q : Fin N) :
    maximumf (addf (addf (Host.dotGeneral d none A Wl)
            (broadcastInDim ⟨2, ![M, N]⟩ ![0, 1] hb2 (broadcastInDim ⟨2, ![1, N]⟩ ![1] hb1 b)))
          (Host.dotGeneral d none X Wr))
        (broadcastInDim ⟨2, ![M, N]⟩ ![] hz (constant (F := Ideal) ⟨0, ![]⟩ .f32 0x00000000#32)) (ix2 p q)
      = sageAt A X Wl Wr (fun c => b (ix1 c)) p q := by
  rw [maximumf_apply, addf_apply, addf_apply, bid_1b_ab_apply, bid_b_1b_apply, bid_scalar_apply, constant_apply, Ideal.ofBits_zero_f32]
  show max ((FloatOps.dotGeneral d none .single A Wl (ix2 p q) + _) + FloatOps.dotGeneral d none .single X Wr (ix2 p q)) 0 = _
  rw [dotGeneral_plain_apply d hd, dotGeneral_plain_apply d hd]
  unfold sageAt
  rw [add_right_comm]

/-- The host's layer is the array `sage`. -/
theorem host_sage_eq (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1]) (hz : (⟨0, ![]⟩ : Shape).BroadcastsInDim ⟨2, ![M, N]⟩ ![])
    (A X : FVec Ideal ⟨2, ![M, K]⟩ .f32) (Wl Wr : FVec Ideal ⟨2, ![K, N]⟩ .f32) (b : FVec Ideal ⟨1, ![N]⟩ .f32) :
    maximumf (addf (addf (Host.dotGeneral d none A Wl)
            (broadcastInDim ⟨2, ![M, N]⟩ ![0, 1] hb2 (broadcastInDim ⟨2, ![1, N]⟩ ![1] hb1 b)))
          (Host.dotGeneral d none X Wr))
        (broadcastInDim ⟨2, ![M, N]⟩ ![] hz (constant (F := Ideal) ⟨0, ![]⟩ .f32 0x00000000#32))
      = sage A X Wl Wr (fun c => b (ix1 c)) := by
  funext i
  obtain ⟨p, q, rfl⟩ : ∃ (p : Fin M) (q : Fin N), i = ix2 p q := ⟨i 0, i 1, eq_ix2 i⟩
  exact host_sage_apply d hd hb1 hb2 hz A X Wl Wr b p q

/-- The host's affine head at an entry. -/
theorem host_lin_apply (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1])
    (H : FVec Ideal ⟨2, ![M, K]⟩ .f32) (W : FVec Ideal ⟨2, ![K, N]⟩ .f32) (b : FVec Ideal ⟨1, ![N]⟩ .f32) (p : Fin M) (q : Fin N) :
    addf (Host.dotGeneral d none H W)
        (broadcastInDim ⟨2, ![M, N]⟩ ![0, 1] hb2 (broadcastInDim ⟨2, ![1, N]⟩ ![1] hb1 b)) (ix2 p q)
      = linAt H W (fun c => b (ix1 c)) p q := by
  rw [addf_apply, bid_1b_ab_apply, bid_b_1b_apply]
  show FloatOps.dotGeneral d none .single H W (ix2 p q) + _ = _
  rw [dotGeneral_plain_apply d hd]
  rfl

/-- The host's affine head is the array `lin`. -/
theorem host_lin_eq (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1])
    (H : FVec Ideal ⟨2, ![M, K]⟩ .f32) (W : FVec Ideal ⟨2, ![K, N]⟩ .f32) (b : FVec Ideal ⟨1, ![N]⟩ .f32) :
    addf (Host.dotGeneral d none H W)
        (broadcastInDim ⟨2, ![M, N]⟩ ![0, 1] hb2 (broadcastInDim ⟨2, ![1, N]⟩ ![1] hb1 b))
      = lin H W (fun c => b (ix1 c)) := by
  funext i
  obtain ⟨p, q, rfl⟩ : ∃ (p : Fin M) (q : Fin N), i = ix2 p q := ⟨i 0, i 1, eq_ix2 i⟩
  exact host_lin_apply d hd hb1 hb2 H W b p q

/-! ## Rows -/

/-- Entry (p, q) of the layer reads row `p` of `A` and of `X` only: operands whose rows agree (row `p` of one pair
    against row `r` of the other) give the same entry. Used to read a block of rows out of the whole array. -/
theorem sageAt_congr {M' : ℕ} (A X : (⟨2, ![M, K]⟩ : Shape).Idx → EReal) (A' X' : (⟨2, ![M', K]⟩ : Shape).Idx → EReal)
    (Wl Wr : (⟨2, ![K, N]⟩ : Shape).Idx → EReal) (b : Fin N → EReal) (p : Fin M) (r : Fin M') (q : Fin N)
    (hA : ∀ k : Fin K, A (ix2 p k) = A' (ix2 r k)) (hX : ∀ k : Fin K, X (ix2 p k) = X' (ix2 r k)) :
    sageAt A X Wl Wr b p q = sageAt A' X' Wl Wr b r q := by
  unfold sageAt
  simp only [hA, hX]

theorem linAt_congr {M' : ℕ} (H : (⟨2, ![M, K]⟩ : Shape).Idx → EReal) (H' : (⟨2, ![M', K]⟩ : Shape).Idx → EReal)
    (W : (⟨2, ![K, N]⟩ : Shape).Idx → EReal) (b : Fin N → EReal) (p : Fin M) (r : Fin M') (q : Fin N)
    (hH : ∀ k : Fin K, H (ix2 p k) = H' (ix2 r k)) : linAt H W b p q = linAt H' W b r q := by
  unfold linAt
  simp only [hH]

end Cert.LibSageLayer

end
-- ==== Proof.Net.lean ====
/-
  The whole network as one function of its ten arguments, on the extended reals.

  Two rounds of "aggregate, then a rectified dense layer", then a linear head:
      a1 = mean over incoming edges of x          h1 = max(a1 · Wl1 + x  · Wr1 + b1, 0)
      a2 = mean over incoming edges of h1         h2 = max(a2 · Wl2 + h1 · Wr2 + b2, 0)
      out = h2 · Wout + bout
  The aggregation (`aggregate64`, `aggregate128`) is kept as the host's own chain of operations — the source endpoint
  wrapped into range and gathered, the gathered rows summed into their target rows, the row sums divided by the number of
  incoming edges (at least one) —: both programs apply that same chain, so nothing here opens it. The dense parts are
  `LibSageLayer.sage` and `LibSageLayer.lin`, entry by entry.
-/
import proofs.«123377_j5153960755630_1_alg».proof.ReferenceIdeal
import proofs.«123377_j5153960755630_1_alg».proof.Proof.LibSageLayer
import Idealize.ShloMosaic.PureOps.Ideal

noncomputable section

namespace Cert.Net

open Idealize.ShloMosaic Idealize.ShloMosaic.ValueIdx Cert.LibSageLayer
open Cert.ReferenceIdeal Cert.ReferenceIdeal.Facts₀

variable [Cert.ReferenceIdeal.Facts]

/-- The edge list: row 0 the source endpoints, row 1 the target endpoints. -/
abbrev Edges : Type := (⟨S2x1600000, .i32⟩ : BufTy).Contents (Elt Ideal)

/-- The source endpoints, as a vector. -/
def src (ei : Edges) : (⟨S1600000, .i32⟩ : BufTy).Contents (Elt Ideal) :=
  shapeCast _ (extractStridedSlice S1x1600000 ![0, 0] ei slices_S2x1600000_S1x1600000_0_0) shapeCasts_S1x1600000_S1600000

/-- The target endpoints, as a vector. -/
def dst (ei : Edges) : (⟨S1600000, .i32⟩ : BufTy).Contents (Elt Ideal) :=
  shapeCast _ (extractStridedSlice S1x1600000 ![1, 0] ei slices_S2x1600000_S1x1600000_1_0) shapeCasts_S1x1600000_S1600000

/-- The gather's index column: a negative source endpoint is shifted up by the node count. -/
def srcCol (ei : Edges) : (⟨S1600000x1, .i32⟩ : BufTy).Contents (Elt Ideal) :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 50000#32))) (src ei))

/-- The scatter's index column: the target endpoints. -/
def dstCol (ei : Edges) : (⟨S1600000x1, .i32⟩ : BufTy).Contents (Elt Ideal) :=
  broadcastInDim S1600000x1 ![0] bcast_S1600000_S1600000x1_0 (dst ei)

/-- Per node, the number of incoming edges, raised to at least one. -/
def degree (ei : Edges) : FVec Ideal S50000 .f32 :=
  maximumf
    (Host.scatterAdd (F := Ideal) scatter_S50000_S1600000x1_S1600000_n_0_0_1
      (broadcastInDim S50000 ![] bcast_S_S50000 (constant (F := Ideal) S_ .f32 0x00000000#32)) (dstCol ei)
      (broadcastInDim S1600000 ![] bcast_S_S1600000 (constant (F := Ideal) S_ .f32 0x3F800000#32)))
    (broadcastInDim S50000 ![] bcast_S_S50000 (constant (F := Ideal) S_ .f32 0x3F800000#32))

/-- The mean of the 64-wide rows that point at each node. -/
def aggregate64 (x : FVec Ideal S50000x64 .f32) (ei : Edges) : FVec Ideal S50000x64 .f32 :=
  Host.divf (F := Ideal)
    (Host.scatterAdd (F := Ideal) scatter_S50000x64_S1600000x1_S1600000x64_1_0_0_1
      (broadcastInDim S50000x64 ![] bcast_S_S50000x64 (constant (F := Ideal) S_ .f32 0x00000000#32)) (dstCol ei)
      (Host.gather gather_S50000x64_S1600000x1_S1600000x64_1_0_n_n_0_1_164 x (srcCol ei)))
    (broadcastInDim S50000x64 ![0, 1] bcast_S50000x1_S50000x64_0_1 (broadcastInDim S50000x1 ![0] bcast_S50000_S50000x1_0 (degree ei)))

/-- The mean of the 128-wide rows that point at each node. -/
def aggregate128 (h : FVec Ideal S50000x128 .f32) (ei : Edges) : FVec Ideal S50000x128 .f32 :=
  Host.divf (F := Ideal)
    (Host.scatterAdd (F := Ideal) scatter_S50000x128_S1600000x1_S1600000x128_1_0_0_1
      (broadcastInDim S50000x128 ![] bcast_S_S50000x128 (constant (F := Ideal) S_ .f32 0x00000000#32)) (dstCol ei)
      (Host.gather gather_S50000x128_S1600000x1_S1600000x128_1_0_n_n_0_1_1128 h (srcCol ei)))
    (broadcastInDim S50000x128 ![0, 1] bcast_S50000x1_S50000x128_0_1 (broadcastInDim S50000x1 ![0] bcast_S50000_S50000x1_0 (degree ei)))

/-- The first layer's output. -/
def hidden1 (x : FVec Ideal S50000x64 .f32) (ei : Edges) (Wl1 : FVec Ideal S64x128 .f32) (b1 : FVec Ideal S128 .f32)
    (Wr1 : FVec Ideal S64x128 .f32) : FVec Ideal S50000x128 .f32 :=
  sage (aggregate64 x ei) x Wl1 Wr1 (fun q => b1 (ix1 q))

/-- The second layer's output, from the first layer's. -/
def hidden2 (h1 : FVec Ideal S50000x128 .f32) (ei : Edges) (Wl2 : FVec Ideal S128x128 .f32) (b2 : FVec Ideal S128 .f32)
    (Wr2 : FVec Ideal S128x128 .f32) : FVec Ideal S50000x128 .f32 :=
  sage (aggregate128 h1 ei) h1 Wl2 Wr2 (fun q => b2 (ix1 q))

/-- The network's result. -/
def net (x : FVec Ideal S50000x64 .f32) (ei : Edges) (Wl1 : FVec Ideal S64x128 .f32) (b1 : FVec Ideal S128 .f32)
    (Wr1 : FVec Ideal S64x128 .f32) (Wl2 : FVec Ideal S128x128 .f32) (b2 : FVec Ideal S128 .f32) (Wr2 : FVec Ideal S128x128 .f32)
    (Wo : FVec Ideal S128x64 .f32) (bo : FVec Ideal S64 .f32) : FVec Ideal S50000x64 .f32 :=
  lin (hidden2 (hidden1 x ei Wl1 b1 Wr1) ei Wl2 b2 Wr2) Wo (fun q => bo (ix1 q))

end Cert.Net

end
-- ==== Proof.HostReads.lean ====
/-
  What each dense call finds in the operands that the host computes for it.

  Before the first call the host slices the edge list into source and target endpoints, aggregates the node features
  (`Net.aggregate64`) and re-lays the first bias as a row. Between the first and the second call it aggregates the first
  call's result with the same endpoints (`Net.aggregate128`) and re-lays the second bias; before the head it re-lays the
  head's bias. Each fact below reads one such buffer off the host's operations: the operations are the same ones, in the
  same order, that `Cert.Net` is spelt with, so every reading ends by unfolding names. A bias row `[1, n]` re-laid from a
  vector `[n]` reads, at `(0, q)`, the vector at `q`.
-/
import proofs.«123377_j5153960755630_1_alg».proof.Proof.Gen.KernelIdeal.Frame
import proofs.«123377_j5153960755630_1_alg».proof.Proof.Gen.ReferenceIdeal
import proofs.«123377_j5153960755630_1_alg».proof.Proof.Net
import Idealize.ShloMosaic.Lib.StableHlo.Run
import Idealize.ShloMosaic.Lib.ValueLayout

set_option maxRecDepth 16384

noncomputable section

namespace Cert.HostReads

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Before the first call -/

/-- The source endpoints, where the first stretch leaves them. -/
theorem src_at_W1 (c : Dev nD) :
    (W1 (F := Ideal) m ρ c (Proc.devRef .tc main_v1) : S1600000.Idx → BitVec 32) = Cert.Net.src (m ((c : Thread nD τ).loc main_arg1)) := by
  dsimp only [W1, hostOps0]
  after_results_simp
  rfl

/-- The target endpoints, where the first stretch leaves them. -/
theorem dst_at_W1 (c : Dev nD) :
    (W1 (F := Ideal) m ρ c (Proc.devRef .tc main_v3) : S1600000.Idx → BitVec 32) = Cert.Net.dst (m ((c : Thread nD τ).loc main_arg1)) := by
  dsimp only [W1, hostOps0]
  after_results_simp
  rfl

/-- The first call's aggregated operand is the mean aggregation of the node features along the edge list. -/
theorem agg_at_V1 (c : Dev nD) :
    (V1 (F := Ideal) m ρ c main_v22 : S50000x64.Idx → EReal)
      = Cert.Net.aggregate64 (m ((c : Thread nD τ).loc main_arg0)) (m ((c : Thread nD τ).loc main_arg1)) := by
  dsimp only [V1, W1, hostOps0]
  after_results_simp
  rfl

/-- The first call's bias row reads the first bias vector. -/
theorem bias_at_V1 (c : Dev nD) (q : Fin 128) :
    (V1 (F := Ideal) m ρ c main_v23 : S1x128.Idx → EReal) (ValueIdx.ix2 (0 : Fin 1) q)
      = (m ((c : Thread nD τ).loc main_arg3) : S128.Idx → EReal) (ValueIdx.ix1 q) := by
  have h : (V1 (F := Ideal) m ρ c main_v23 : S1x128.Idx → EReal)
      = shapeCast _ (m ((c : Thread nD τ).loc main_arg3)) Cert.KernelIdeal.Gen.shapeCasts_S128_S1x128 := by
    dsimp only [V1, W1, hostOps0]
    after_results_simp
    rfl
  rw [h]
  exact shapeCast_a_1a_apply _ _ 0 q

/-! ## Between the first and the second call -/

/-- The second call's aggregated operand is the mean aggregation of the first call's result along the same edge list:
    the stretch recomputes the index columns from the endpoint vectors the first stretch left, which the first call
    does not touch. -/
theorem agg_at_V3 (c : Dev nD) :
    (V3 (F := Ideal) m ρ c main_v43 : S50000x128.Idx → EReal)
      = Cert.Net.aggregate128 (W2 m ρ c (Proc.devRef .tc main_v24)) (m ((c : Thread nD τ).loc main_arg1)) := by
  have hs : (W2 (F := Ideal) m ρ c (Proc.devRef .tc main_v1) : S1600000.Idx → BitVec 32) = Cert.Net.src (m ((c : Thread nD τ).loc main_arg1)) :=
    (W2_of_ne m ρ c main_v1 (by decide)).trans (src_at_W1 m ρ c)
  have hd : (W2 (F := Ideal) m ρ c (Proc.devRef .tc main_v3) : S1600000.Idx → BitVec 32) = Cert.Net.dst (m ((c : Thread nD τ).loc main_arg1)) :=
    (W2_of_ne m ρ c main_v3 (by decide)).trans (dst_at_W1 m ρ c)
  dsimp only [V3, W3, hostOps1]
  after_results_simp
  rw [hs, hd]
  rfl

/-- The second call's bias row reads the second bias vector: nothing before the second stretch writes that argument. -/
theorem bias_at_V3 (c : Dev nD) (q : Fin 128) :
    (V3 (F := Ideal) m ρ c main_v44 : S1x128.Idx → EReal) (ValueIdx.ix2 (0 : Fin 1) q)
      = (m ((c : Thread nD τ).loc main_arg6) : S128.Idx → EReal) (ValueIdx.ix1 q) := by
  have ha : W2 (F := Ideal) m ρ c (Proc.devRef .tc main_arg6) = m ((c : Thread nD τ).loc main_arg6) :=
    calc W2 (F := Ideal) m ρ c (Proc.devRef .tc main_arg6)
      _ = W1 m ρ c (Proc.devRef .tc main_arg6) := W2_of_ne m ρ c main_arg6 (by decide)
      _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg6) := rfl
  have h : (V3 (F := Ideal) m ρ c main_v44 : S1x128.Idx → EReal)
      = shapeCast _ (W2 (F := Ideal) m ρ c (Proc.devRef .tc main_arg6)) Cert.KernelIdeal.Gen.shapeCasts_S128_S1x128 := by
    dsimp only [V3, W3, hostOps1]
    after_results_simp
    rfl
  rw [h, ha]
  exact shapeCast_a_1a_apply _ _ 0 q

/-! ## Before the third call -/

/-- The third call's bias row reads the head's bias vector: nothing before the third stretch writes that argument. -/
theorem bias_at_V5 (c : Dev nD) (q : Fin 64) :
    (V5 (F := Ideal) m ρ c main_v46 : S1x64.Idx → EReal) (ValueIdx.ix2 (0 : Fin 1) q)
      = (m ((c : Thread nD τ).loc main_arg9) : S64.Idx → EReal) (ValueIdx.ix1 q) := by
  have ha : W4 (F := Ideal) m ρ c (Proc.devRef .tc main_arg9) = m ((c : Thread nD τ).loc main_arg9) :=
    calc W4 (F := Ideal) m ρ c (Proc.devRef .tc main_arg9)
      _ = W3 m ρ c (Proc.devRef .tc main_arg9) := W4_of_ne m ρ c main_arg9 (by decide)
      _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg9) := W2_of_ne m ρ c main_arg9 (by decide)
      _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg9) := rfl
  have h : (V5 (F := Ideal) m ρ c main_v46 : S1x64.Idx → EReal)
      = shapeCast _ (W4 (F := Ideal) m ρ c (Proc.devRef .tc main_arg9)) Cert.KernelIdeal.Gen.shapeCasts_S64_S1x64 := by
    dsimp only [V5, W5, hostOps2]
    after_results_simp
    rfl
  rw [h, ha]
  exact shapeCast_a_1a_apply _ _ 0 q

end Cert.HostReads

end
-- ==== Proof.Layer1.lean ====
/-
  The first dense call (aggregated features and node features, 64 wide, to 128 hidden units): its output array as one function of its operand arrays.

  The call runs over ten grid points; point `t` is given rows 5000·t … 5000·t + 4999 of the aggregated features `A` and
  of the node features `X`, the whole of both weight matrices and of the bias row, and writes back rows
  5000·t … 5000·t + 4999 of the result. Entry (p, q) of what it writes is `sageAt` of the two blocks, which reads row
  `p` of each block only — that is row 5000·t + p of `A` and of `X` —, so the written block is the restriction of the one
  array `sage A X Wl Wr b` to those rows. The ten row blocks tile the 50000 rows (row `r` belongs to point `r / 5000`),
  so after the call the output array is `sage A X Wl Wr b`, for whatever contents `V` the call finds in its operands.
-/
import proofs.«123377_j5153960755630_1_alg».proof.Proof.Gen.KernelIdeal.Frame
import proofs.«123377_j5153960755630_1_alg».proof.Proof.LibSageLayer
import Idealize.ShloMosaic.Lib.Pipeline.Value

set_option maxRecDepth 16384

noncomputable section

namespace Cert.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibHostRead Cert.LibSageLayer

/-- The body's matrix product is rows × contraction times contraction × columns. -/
theorem plain : PlainDot dot_S5000x64_S64x128_S5000x128_1_0_0_1_n_n where
  hr := rfl
  hs := rfl
  hl0 := fun i q => by
    unfold DotDims.lhsIdx
    rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
    rfl
  hl1 := fun i q => dot_S5000x64_S64x128_S5000x128_1_0_0_1_n_n.lhsIdx_val_of_single rfl i q
  hr0 := fun i q => dot_S5000x64_S64x128_S5000x128_1_0_0_1_n_n.rhsIdx_val_of_single rfl i q
  hr1 := fun i q => by
    unfold DotDims.rhsIdx
    rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
    rfl

/-- What the body stores, at an entry, from the blocks it loaded. -/
theorem pay_apply (a x : FVec Ideal S5000x64 .f32) (wl wr : FVec Ideal S64x128 .f32) (B : FVec Ideal S1x128 .f32) (p : Fin 5000) (q : Fin 128) :
    k0_pay1 (F := Ideal) a x wl wr B (ix2 p q) = sageAt a x wl wr (fun c => B (ix2 (0 : Fin 1) c)) p q := by
  unfold k0_pay1
  rw [shapeCast_self a]
  exact vec_sage_apply dot_S5000x64_S64x128_S5000x128_1_0_0_1_n_n plain _ _ _ a x wl wr B p q

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at row block `t`, the
    weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-- The call's result array after its ten write-backs, as one function of the operand arrays it found. -/
abbrev G (c : Dev nD) : S50000x128.Idx → EReal :=
  sage (V c main_v22 : S50000x64.Idx → EReal) (V c main_arg0 : S50000x64.Idx → EReal) (V c main_arg2 : S64x128.Idx → EReal)
    (V c main_arg4 : S64x128.Idx → EReal) (fun q => (V c main_v23 : S1x128.Idx → EReal) (ix2 (0 : Fin 1) q))

/-- Row `u` of point `t`'s block of `A` is row 5000·t + u of `A`. -/
theorem blkA (c : Dev nD) (t : Fin cfg0.N) (u : Fin 5000) (k : Fin 64) (h : t.val * 5000 + u.val < 50000) :
    iblk0 V c 0 t (ix2 u k) = (V c main_v22 : S50000x64.Idx → EReal) (ix2 ⟨t.val * 5000 + u.val, h⟩ k) := by
  obtain ⟨e00, e01, -⟩ := idx_facts t
  show (V c main_v22 : S50000x64.Idx → EReal) (((cfg0.win 0).blk t).view.emb (ix2 u k)) = _
  congr 1
  funext a; apply Fin.ext
  match a with
  | ⟨0, _⟩ => show win0_0.index t (0 : Fin 2) * 5000 + 1 * u.val = t.val * 5000 + u.val; omega
  | ⟨1, _⟩ => show win0_0.index t (1 : Fin 2) * 64 + 1 * k.val = k.val; omega

/-- Row `u` of point `t`'s block of `X` is row 5000·t + u of `X`. -/
theorem blkX (c : Dev nD) (t : Fin cfg0.N) (u : Fin 5000) (k : Fin 64) (h : t.val * 5000 + u.val < 50000) :
    iblk0 V c 1 t (ix2 u k) = (V c main_arg0 : S50000x64.Idx → EReal) (ix2 ⟨t.val * 5000 + u.val, h⟩ k) := by
  obtain ⟨-, -, e10, e11, -⟩ := idx_facts t
  show (V c main_arg0 : S50000x64.Idx → EReal) (((cfg0.win 1).blk t).view.emb (ix2 u k)) = _
  congr 1
  funext a; apply Fin.ext
  match a with
  | ⟨0, _⟩ => show win0_1.index t (0 : Fin 2) * 5000 + 1 * u.val = t.val * 5000 + u.val; omega
  | ⟨1, _⟩ => show win0_1.index t (1 : Fin 2) * 64 + 1 * k.val = k.val; omega

/-- Every point is given the whole left weight matrix. -/
theorem blkWl (c : Dev nD) (t : Fin cfg0.N) (k : Fin 64) (q : Fin 128) :
    iblk0 V c 2 t (ix2 k q) = (V c main_arg2 : S64x128.Idx → EReal) (ix2 k q) := by
  obtain ⟨-, -, -, -, e20, e21, -⟩ := idx_facts t
  show (V c main_arg2 : S64x128.Idx → EReal) (((cfg0.win 2).blk t).view.emb (ix2 k q)) = _
  congr 1
  funext a; apply Fin.ext
  match a with
  | ⟨0, _⟩ => show win0_2.index t (0 : Fin 2) * 64 + 1 * k.val = k.val; omega
  | ⟨1, _⟩ => show win0_2.index t (1 : Fin 2) * 128 + 1 * q.val = q.val; omega

/-- Every point is given the whole bias row. -/
theorem blkB (c : Dev nD) (t : Fin cfg0.N) (q : Fin 128) :
    iblk0 V c 3 t (ix2 (0 : Fin 1) q) = (V c main_v23 : S1x128.Idx → EReal) (ix2 (0 : Fin 1) q) := by
  obtain ⟨-, -, -, -, -, -, e30, e31, -⟩ := idx_facts t
  show (V c main_v23 : S1x128.Idx → EReal) (((cfg0.win 3).blk t).view.emb (ix2 (0 : Fin 1) q)) = _
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- Every point is given the whole right weight matrix. -/
theorem blkWr (c : Dev nD) (t : Fin cfg0.N) (k : Fin 64) (q : Fin 128) :
    iblk0 V c 4 t (ix2 k q) = (V c main_arg4 : S64x128.Idx → EReal) (ix2 k q) := by
  obtain ⟨-, -, -, -, -, -, -, -, e40, e41, -⟩ := idx_facts t
  show (V c main_arg4 : S64x128.Idx → EReal) (((cfg0.win 4).blk t).view.emb (ix2 k q)) = _
  congr 1
  funext a; apply Fin.ext
  match a with
  | ⟨0, _⟩ => show win0_4.index t (0 : Fin 2) * 64 + 1 * k.val = k.val; omega
  | ⟨1, _⟩ => show win0_4.index t (1 : Fin 2) * 128 + 1 * q.val = q.val; omega

/-- Entry (u, q) of point `t`'s output block sits at (5000·t + u, q) of the output array. -/
theorem embOut (t : Fin cfg0.N) (u : Fin 5000) (q : Fin 128) (h : t.val * 5000 + u.val < 50000) :
    ((cfg0.win 5).blk t).view.emb (ix2 u q) = (ix2 ⟨t.val * 5000 + u.val, h⟩ q : S50000x128.Idx) := by
  obtain ⟨-, -, -, -, -, -, -, -, -, -, e50, e51⟩ := idx_facts t
  funext a; apply Fin.ext
  match a with
  | ⟨0, _⟩ => show win0_5.index t (0 : Fin 2) * 5000 + 1 * u.val = t.val * 5000 + u.val; omega
  | ⟨1, _⟩ => show win0_5.index t (1 : Fin 2) * 128 + 1 * q.val = q.val; omega

/-- WHAT POINT `t` WRITES BACK is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨u, q, rfl⟩ : ∃ (u : Fin 5000) (q : Fin 128), j = ix2 u q := ⟨j 0, j 1, eq_ix2 j⟩
  have hlt : t.val * 5000 + u.val < 50000 := by have := t_lt t; have := u.isLt; omega
  refine (pay_apply (iblk0 V c 0 t) (iblk0 V c 1 t) (iblk0 V c 2 t) (iblk0 V c 4 t) (iblk0 V c 3 t) u q).trans ?_
  show _ = G V c (((cfg0.win 5).blk t).view.emb (ix2 u q))
  rw [embOut t u q hlt]
  show _ = sageAt _ _ _ _ _ (⟨t.val * 5000 + u.val, hlt⟩ : Fin 50000) q
  unfold sageAt
  simp only [blkA V c t u _ hlt, blkX V c t u _ hlt, blkWl V c t, blkWr V c t, blkB V c t]

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten row blocks tile the output array: row `r` is in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, -, -, -, -, -, -, e50, e51⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- THE OUTPUT ARRAY after the call is `G` of the operand arrays the call found. -/
theorem final (c : Dev nD) : (dat0 (F := Ideal) V c).arrAt 5 cfg0.N = G V c :=
  (dat0 (F := Ideal) V c).arrAt_eq_of_cover 5 (G V c) (fun t _ => flushed_eq V c t) (cover)

end Cert.Layer1

end
-- ==== Proof.Layer2.lean ====
/-
  The second dense call (aggregated hidden features and hidden features, 128 wide, to 128 hidden units): its output array as one function of its operand arrays.

  The call runs over ten grid points; point `t` is given rows 5000·t … 5000·t + 4999 of the aggregated features `A` and
  of the node features `X`, the whole of both weight matrices and of the bias row, and writes back rows
  5000·t … 5000·t + 4999 of the result. Entry (p, q) of what it writes is `sageAt` of the two blocks, which reads row
  `p` of each block only — that is row 5000·t + p of `A` and of `X` —, so the written block is the restriction of the one
  array `sage A X Wl Wr b` to those rows. The ten row blocks tile the 50000 rows (row `r` belongs to point `r / 5000`),
  so after the call the output array is `sage A X Wl Wr b`, for whatever contents `V` the call finds in its operands.
-/
import proofs.«123377_j5153960755630_1_alg».proof.Proof.Gen.KernelIdeal.Frame
import proofs.«123377_j5153960755630_1_alg».proof.Proof.LibSageLayer
import Idealize.ShloMosaic.Lib.Pipeline.Value

set_option maxRecDepth 16384

noncomputable section

namespace Cert.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibHostRead Cert.LibSageLayer

/-- The body's matrix product is rows × contraction times contraction × columns. -/
theorem plain : PlainDot dot_S5000x128_S128x128_S5000x128_1_0_0_1_n_n where
  hr := rfl
  hs := rfl
  hl0 := fun i q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  hl1 := fun i q => dot_S5000x128_S128x128_S5000x128_1_0_0_1_n_n.lhsIdx_val_of_single rfl i q
  hr0 := fun i q => dot_S5000x128_S128x128_S5000x128_1_0_0_1_n_n.rhsIdx_val_of_single rfl i q
  hr1 := fun i q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- What the body stores, at an entry, from the blocks it loaded. -/
theorem pay_apply (a x : FVec Ideal S5000x128 .f32) (wl wr : FVec Ideal S128x128 .f32) (B : FVec Ideal S1x128 .f32) (p : Fin 5000) (q : Fin 128) :
    k1_pay1 (F := Ideal) a x wl wr B (ix2 p q) = sageAt a x wl wr (fun c => B (ix2 (0 : Fin 1) c)) p q := by
  unfold k1_pay1
  rw [shapeCast_self a, shapeCast_self x]
  exact vec_sage_apply dot_S5000x128_S128x128_S5000x128_1_0_0_1_n_n plain _ _ _ a x wl wr B p q

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at row block `t`, the
    weights and the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-- The call's result array after its ten write-backs, as one function of the operand arrays it found. -/
abbrev G (c : Dev nD) : S50000x128.Idx → EReal :=
  sage (V c main_v43 : S50000x128.Idx → EReal) (V c main_v24 : S50000x128.Idx → EReal) (V c main_arg5 : S128x128.Idx → EReal)
    (V c main_arg7 : S128x128.Idx → EReal) (fun q => (V c main_v44 : S1x128.Idx → EReal) (ix2 (0 : Fin 1) q))

/-- Row `u` of point `t`'s block of `A` is row 5000·t + u of `A`. -/
theorem blkA (c : Dev nD) (t : Fin cfg1.N) (u : Fin 5000) (k : Fin 128) (h : t.val * 5000 + u.val < 50000) :
    iblk1 V c 0 t (ix2 u k) = (V c main_v43 : S50000x128.Idx → EReal) (ix2 ⟨t.val * 5000 + u.val, h⟩ k) := by
  obtain ⟨e00, e01, -⟩ := idx_facts t
  show (V c main_v43 : S50000x128.Idx → EReal) (((cfg1.win 0).blk t).view.emb (ix2 u k)) = _
  congr 1
  funext a; apply Fin.ext
  match a with
  | ⟨0, _⟩ => show win1_0.index t (0 : Fin 2) * 5000 + 1 * u.val = t.val * 5000 + u.val; omega
  | ⟨1, _⟩ => show win1_0.index t (1 : Fin 2) * 128 + 1 * k.val = k.val; omega

/-- Row `u` of point `t`'s block of `X` is row 5000·t + u of `X`. -/
theorem blkX (c : Dev nD) (t : Fin cfg1.N) (u : Fin 5000) (k : Fin 128) (h : t.val * 5000 + u.val < 50000) :
    iblk1 V c 1 t (ix2 u k) = (V c main_v24 : S50000x128.Idx → EReal) (ix2 ⟨t.val * 5000 + u.val, h⟩ k) := by
  obtain ⟨-, -, e10, e11, -⟩ := idx_facts t
  show (V c main_v24 : S50000x128.Idx → EReal) (((cfg1.win 1).blk t).view.emb (ix2 u k)) = _
  congr 1
  funext a; apply Fin.ext
  match a with
  | ⟨0, _⟩ => show win1_1.index t (0 : Fin 2) * 5000 + 1 * u.val = t.val * 5000 + u.val; omega
  | ⟨1, _⟩ => show win1_1.index t (1 : Fin 2) * 128 + 1 * k.val = k.val; omega

/-- Every point is given the whole left weight matrix. -/
theorem blkWl (c : Dev nD) (t : Fin cfg1.N) (k : Fin 128) (q : Fin 128) :
    iblk1 V c 2 t (ix2 k q) = (V c main_arg5 : S128x128.Idx → EReal) (ix2 k q) := by
  obtain ⟨-, -, -, -, e20, e21, -⟩ := idx_facts t
  show (V c main_arg5 : S128x128.Idx → EReal) (((cfg1.win 2).blk t).view.emb (ix2 k q)) = _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Every point is given the whole bias row. -/
theorem blkB (c : Dev nD) (t : Fin cfg1.N) (q : Fin 128) :
    iblk1 V c 3 t (ix2 (0 : Fin 1) q) = (V c main_v44 : S1x128.Idx → EReal) (ix2 (0 : Fin 1) q) := by
  obtain ⟨-, -, -, -, -, -, e30, e31, -⟩ := idx_facts t
  show (V c main_v44 : S1x128.Idx → EReal) (((cfg1.win 3).blk t).view.emb (ix2 (0 : Fin 1) q)) = _
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- Every point is given the whole right weight matrix. -/
theorem blkWr (c : Dev nD) (t : Fin cfg1.N) (k : Fin 128) (q : Fin 128) :
    iblk1 V c 4 t (ix2 k q) = (V c main_arg7 : S128x128.Idx → EReal) (ix2 k q) := by
  obtain ⟨-, -, -, -, -, -, -, -, e40, e41, -⟩ := idx_facts t
  show (V c main_arg7 : S128x128.Idx → EReal) (((cfg1.win 4).blk t).view.emb (ix2 k q)) = _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- Entry (u, q) of point `t`'s output block sits at (5000·t + u, q) of the output array. -/
theorem embOut (t : Fin cfg1.N) (u : Fin 5000) (q : Fin 128) (h : t.val * 5000 + u.val < 50000) :
    ((cfg1.win 5).blk t).view.emb (ix2 u q) = (ix2 ⟨t.val * 5000 + u.val, h⟩ q : S50000x128.Idx) := by
  obtain ⟨-, -, -, -, -, -, -, -, -, -, e50, e51⟩ := idx_facts t
  funext a; apply Fin.ext
  match a with
  | ⟨0, _⟩ => show win1_5.index t (0 : Fin 2) * 5000 + 1 * u.val = t.val * 5000 + u.val; omega
  | ⟨1, _⟩ => show win1_5.index t (1 : Fin 2) * 128 + 1 * q.val = q.val; omega

/-- WHAT POINT `t` WRITES BACK is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨u, q, rfl⟩ : ∃ (u : Fin 5000) (q : Fin 128), j = ix2 u q := ⟨j 0, j 1, eq_ix2 j⟩
  have hlt : t.val * 5000 + u.val < 50000 := by have := t_lt t; have := u.isLt; omega
  refine (pay_apply (iblk1 V c 0 t) (iblk1 V c 1 t) (iblk1 V c 2 t) (iblk1 V c 4 t) (iblk1 V c 3 t) u q).trans ?_
  show _ = G V c (((cfg1.win 5).blk t).view.emb (ix2 u q))
  rw [embOut t u q hlt]
  show _ = sageAt _ _ _ _ _ (⟨t.val * 5000 + u.val, hlt⟩ : Fin 50000) q
  unfold sageAt
  simp only [blkA V c t u _ hlt, blkX V c t u _ hlt, blkWl V c t, blkWr V c t, blkB V c t]

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten row blocks tile the output array: row `r` is in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  obtain ⟨-, -, -, -, -, -, -, -, -, -, e50, e51⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- THE OUTPUT ARRAY after the call is `G` of the operand arrays the call found. -/
theorem final (c : Dev nD) : (dat1 (F := Ideal) V c).arrAt 5 cfg1.N = G V c :=
  (dat1 (F := Ideal) V c).arrAt_eq_of_cover 5 (G V c) (fun t _ => flushed_eq V c t) (cover)

end Cert.Layer2

end
-- ==== Proof.Head.lean ====
/-
  The head call (hidden features, 128 wide, to 64 outputs): its output array as one function of its operand arrays.

  The call runs over ten grid points; point `t` is given rows 5000·t … 5000·t + 4999 of the hidden features `H`, the
  whole weight matrix and the whole bias row, and writes back rows 5000·t … 5000·t + 4999 of the result. Entry (p, q) of
  what it writes is `linAt` of the block, which reads row `p` of the block only — row 5000·t + p of `H` —, so the written
  block is the restriction of the one array `lin H W b` to those rows. The ten row blocks tile the 50000 rows, so after
  the call the output array is `lin H W b`, for whatever contents `V` the call finds in its operands.
-/
import proofs.«123377_j5153960755630_1_alg».proof.Proof.Gen.KernelIdeal.Frame
import proofs.«123377_j5153960755630_1_alg».proof.Proof.LibSageLayer
import Idealize.ShloMosaic.Lib.Pipeline.Value

set_option maxRecDepth 16384

noncomputable section

namespace Cert.Head

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibHostRead Cert.LibSageLayer

/-- The body's matrix product is rows × contraction times contraction × columns. -/
theorem plain : PlainDot dot_S5000x128_S128x64_S5000x64_1_0_0_1_n_n where
  hr := rfl
  hs := rfl
  hl0 := fun i q => by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  hl1 := fun i q => dot_S5000x128_S128x64_S5000x64_1_0_0_1_n_n.lhsIdx_val_of_single rfl i q
  hr0 := fun i q => dot_S5000x128_S128x64_S5000x64_1_0_0_1_n_n.rhsIdx_val_of_single rfl i q
  hr1 := fun i q => by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- What the body stores, at an entry, from the blocks it loaded. -/
theorem pay_apply (h : FVec Ideal S5000x128 .f32) (w : FVec Ideal S128x64 .f32) (B : FVec Ideal S1x64 .f32) (p : Fin 5000) (q : Fin 64) :
    k2_pay1 (F := Ideal) h w B (ix2 p q) = linAt h w (fun c => B (ix2 (0 : Fin 1) c)) p q := by
  unfold k2_pay1
  rw [shapeCast_self h]
  exact vec_lin_apply dot_S5000x128_S128x64_S5000x64_1_0_0_1_n_n plain _ _ _ h w B p q

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked input and the output sit at row block `t`, the weights
    and the bias at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 10 := lt_of_lt_of_eq t.isLt N_2

/-- The call's result array after its ten write-backs, as one function of the operand arrays it found. -/
abbrev G (c : Dev nD) : S50000x64.Idx → EReal :=
  lin (V c main_v45 : S50000x128.Idx → EReal) (V c main_arg8 : S128x64.Idx → EReal)
    (fun q => (V c main_v46 : S1x64.Idx → EReal) (ix2 (0 : Fin 1) q))

/-- Row `u` of point `t`'s block of `H` is row 5000·t + u of `H`. -/
theorem blkH (c : Dev nD) (t : Fin cfg2.N) (u : Fin 5000) (k : Fin 128) (h : t.val * 5000 + u.val < 50000) :
    iblk2 V c 0 t (ix2 u k) = (V c main_v45 : S50000x128.Idx → EReal) (ix2 ⟨t.val * 5000 + u.val, h⟩ k) := by
  obtain ⟨e00, e01, -⟩ := idx_facts t
  show (V c main_v45 : S50000x128.Idx → EReal) (((cfg2.win 0).blk t).view.emb (ix2 u k)) = _
  congr 1
  funext a; apply Fin.ext
  match a with
  | ⟨0, _⟩ => show win2_0.index t (0 : Fin 2) * 5000 + 1 * u.val = t.val * 5000 + u.val; omega
  | ⟨1, _⟩ => show win2_0.index t (1 : Fin 2) * 128 + 1 * k.val = k.val; omega

/-- Every point is given the whole weight matrix. -/
theorem blkW (c : Dev nD) (t : Fin cfg2.N) (k : Fin 128) (q : Fin 64) :
    iblk2 V c 1 t (ix2 k q) = (V c main_arg8 : S128x64.Idx → EReal) (ix2 k q) := by
  obtain ⟨-, -, e10, e11, -⟩ := idx_facts t
  show (V c main_arg8 : S128x64.Idx → EReal) (((cfg2.win 1).blk t).view.emb (ix2 k q)) = _
  congr 1
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- Every point is given the whole bias row. -/
theorem blkB (c : Dev nD) (t : Fin cfg2.N) (q : Fin 64) :
    iblk2 V c 2 t (ix2 (0 : Fin 1) q) = (V c main_v46 : S1x64.Idx → EReal) (ix2 (0 : Fin 1) q) := by
  obtain ⟨-, -, -, -, e20, e21, -⟩ := idx_facts t
  show (V c main_v46 : S1x64.Idx → EReal) (((cfg2.win 2).blk t).view.emb (ix2 (0 : Fin 1) q)) = _
  congr 1
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- Entry (u, q) of point `t`'s output block sits at (5000·t + u, q) of the output array. -/
theorem embOut (t : Fin cfg2.N) (u : Fin 5000) (q : Fin 64) (h : t.val * 5000 + u.val < 50000) :
    ((cfg2.win 3).blk t).view.emb (ix2 u q) = (ix2 ⟨t.val * 5000 + u.val, h⟩ q : S50000x64.Idx) := by
  obtain ⟨-, -, -, -, -, -, e30, e31⟩ := idx_facts t
  funext a; apply Fin.ext
  match a with
  | ⟨0, _⟩ => show win2_3.index t (0 : Fin 2) * 5000 + 1 * u.val = t.val * 5000 + u.val; omega
  | ⟨1, _⟩ => show win2_3.index t (1 : Fin 2) * 64 + 1 * q.val = q.val; omega

/-- WHAT POINT `t` WRITES BACK is block `t` of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  funext j
  obtain ⟨u, q, rfl⟩ : ∃ (u : Fin 5000) (q : Fin 64), j = ix2 u q := ⟨j 0, j 1, eq_ix2 j⟩
  have hlt : t.val * 5000 + u.val < 50000 := by have := t_lt t; have := u.isLt; omega
  refine (pay_apply (iblk2 V c 0 t) (iblk2 V c 1 t) (iblk2 V c 2 t) u q).trans ?_
  show _ = G V c (((cfg2.win 3).blk t).view.emb (ix2 u q))
  rw [embOut t u q hlt]
  show _ = linAt _ _ _ (⟨t.val * 5000 + u.val, hlt⟩ : Fin 50000) q
  unfold linAt
  simp only [blkH V c t u _ hlt, blkW V c t, blkB V c t]

/-- An index of the output array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v47).slice (win2_3.rect t)).set ↔ _
  rw [View.set_slice_whole, Rect.mem_set_unit]
  exact Iff.rfl

/-- The ten row blocks tile the output array: row `r` is in the block of point `r / 5000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 5000 < cfg2.N := lt_of_lt_of_eq (by omega : (i 0).val / 5000 < 10) N_2.symm
  obtain ⟨-, -, -, -, -, -, e30, e31⟩ := idx_facts ⟨(i 0).val / 5000, hN⟩
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hN⟩ (1 : Fin 2) * 64 ≤ (i 1).val ∧ (i 1).val < win2_3.index ⟨(i 0).val / 5000, hN⟩ (1 : Fin 2) * 64 + 64
    rw [e31]; omega

/-- THE OUTPUT ARRAY after the call is `G` of the operand arrays the call found. -/
theorem final (c : Dev nD) : (dat2 (F := Ideal) V c).arrAt 3 cfg2.N = G V c :=
  (dat2 (F := Ideal) V c).arrAt_eq_of_cover 3 (G V c) (fun t _ => flushed_eq V c t) (cover)

end Cert.Head

end
-- ==== Proof.KernelValue.lean ====
/-
  The idealized kernel's result array is the network function of its ten arguments.

  The three dense calls leave, in turn, `sage` of what the first finds (the aggregated node features, the node features,
  the first layer's weights and bias), `sage` of what the second finds (the aggregated first result, the first result,
  the second layer's weights and bias) and `lin` of what the third finds (the second result, the head's weights and
  bias). What each call finds is what the host and the earlier calls left: the aggregations are `Net.aggregate64` of
  the arguments and `Net.aggregate128` of the first call's result, the bias rows are the bias vectors re-laid, the
  weights are the arguments. Substituting from the last call back to the first gives `Net.net` of the arguments.
-/
import proofs.«123377_j5153960755630_1_alg».proof.Proof.KernelRun
import proofs.«123377_j5153960755630_1_alg».proof.Proof.HostReads
import proofs.«123377_j5153960755630_1_alg».proof.Proof.Layer1
import proofs.«123377_j5153960755630_1_alg».proof.Proof.Layer2
import proofs.«123377_j5153960755630_1_alg».proof.Proof.Head

set_option maxRecDepth 16384

noncomputable section

namespace Cert.KernelValue

open Idealize.ShloMosaic Idealize.ShloMosaic.TcCoe Idealize.ShloMosaic.ValueIdx Idealize.SL.Sem
open Cert.KernelIdeal Cert.KernelIdeal.Gen Cert.LibSageLayer

variable (m : (ℓ : Loc nD τ sig) → Buf (Elt Ideal) ℓ) (ρ : Dev nD → PrngReg)

/-- The first call's output array is the first layer's result. -/
theorem hidden1_eq (c : Dev nD) :
    ((dat0 (F := Ideal) (V1 m ρ) c).arrAt 5 cfg0.N : S50000x128.Idx → EReal)
      = Cert.Net.hidden1 (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.Layer1.final (V1 m ρ) c]
  dsimp only [Cert.Layer1.G]
  unfold Cert.Net.hidden1
  rw [Cert.HostReads.agg_at_V1 m ρ c, Cert.KernelRun.arg0_at_V1 m ρ c, Cert.KernelRun.arg2_at_V1 m ρ c, Cert.KernelRun.arg4_at_V1 m ρ c]
  congr 1
  funext q
  exact Cert.HostReads.bias_at_V1 m ρ c q

/-- The second call's output array is the second layer's result. -/
theorem hidden2_eq (c : Dev nD) :
    ((dat1 (F := Ideal) (V3 m ρ) c).arrAt 5 cfg1.N : S50000x128.Idx → EReal)
      = Cert.Net.hidden2 (Cert.Net.hidden1 (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg1)) (m ((c : Thread nD τ).loc main_arg5)) (m ((c : Thread nD τ).loc main_arg6)) (m ((c : Thread nD τ).loc main_arg7)) := by
  have e24 : W2 m ρ c (Proc.devRef .tc main_v24) = (dat0 (F := Ideal) (V1 m ρ) c).arrAt 5 cfg0.N := W2_arr m ρ c 5
  rw [Cert.Layer2.final (V3 m ρ) c]
  dsimp only [Cert.Layer2.G]
  unfold Cert.Net.hidden2
  rw [Cert.HostReads.agg_at_V3 m ρ c, e24, Cert.KernelRun.v24_eq m ρ c, hidden1_eq m ρ c, Cert.KernelRun.arg5_at_V3 m ρ c, Cert.KernelRun.arg7_at_V3 m ρ c]
  congr 1
  funext q
  exact Cert.HostReads.bias_at_V3 m ρ c q

/-- THE RESULT ARRAY at the last boundary is the network function of the ten arguments. -/
theorem result_eq (c : Dev nD) :
    (W6 (F := Ideal) m ρ c (Proc.devRef .tc main_v47) : S50000x64.Idx → EReal)
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KernelRun.out_eq m ρ c, Cert.Head.final (V5 m ρ) c]
  dsimp only [Cert.Head.G]
  unfold Cert.Net.net
  rw [Cert.KernelRun.v45_eq m ρ c, hidden2_eq m ρ c, Cert.KernelRun.arg8_at_V5 m ρ c]
  congr 1
  funext q
  exact Cert.HostReads.bias_at_V5 m ρ c q

/-- The idealized kernel's run: every weakly fair execution ends with the result buffer at the network function of
    the launch contents of the ten arguments, and the arguments unchanged. -/
theorem run : θ_run defs (onTc (τ := τ) (main (F := Ideal))) ⟨m, fun _ => 0, ρ⟩ (fun r => ∀ c : Dev nD,
      r.2.mem ((c.tc : Thread nD τ).loc main_v47) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelRun.run (F := Ideal) m ρ)

end Cert.KernelValue

end
-- ==== Proof.RefValue.lean ====
/-
  The reference program's result is the network function of its ten arguments.

  The reference computes, on the host, two rounds of "mean over incoming edges, then max(A · Wl + b + X · Wr, 0)" and a
  linear head "H · W + b". Each dense part is a product of an M × K by a K × N matrix with the bias vector placed as a
  row and repeated along the rows, so it is the array `sage` (respectively `lin`) of its operands; the aggregation
  between them is the same chain of host operations that `Net.aggregate64` and `Net.aggregate128` name, and is left
  closed. Rewriting the three dense parts turns the reference's term into `Net.net` of the arguments.
-/
import proofs.«123377_j5153960755630_1_alg».proof.Proof.Gen.ReferenceIdeal.Run
import proofs.«123377_j5153960755630_1_alg».proof.Proof.Net

set_option maxRecDepth 16384

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.LibHostRead Cert.LibSageLayer

/-- The first layer's products are 50000 × 64 times 64 × 128. -/
theorem plain1 : PlainDot dot_S50000x64_S64x128_S50000x128_1_0_0_1_n_n where
  hr := rfl
  hs := rfl
  hl0 := fun i q => by
    unfold DotDims.lhsIdx
    rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
    rfl
  hl1 := fun i q => dot_S50000x64_S64x128_S50000x128_1_0_0_1_n_n.lhsIdx_val_of_single rfl i q
  hr0 := fun i q => dot_S50000x64_S64x128_S50000x128_1_0_0_1_n_n.rhsIdx_val_of_single rfl i q
  hr1 := fun i q => by
    unfold DotDims.rhsIdx
    rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
    rfl

/-- The second layer's products are 50000 × 128 times 128 × 128. -/
theorem plain2 : PlainDot dot_S50000x128_S128x128_S50000x128_1_0_0_1_n_n where
  hr := rfl
  hs := rfl
  hl0 := fun i q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  hl1 := fun i q => dot_S50000x128_S128x128_S50000x128_1_0_0_1_n_n.lhsIdx_val_of_single rfl i q
  hr0 := fun i q => dot_S50000x128_S128x128_S50000x128_1_0_0_1_n_n.rhsIdx_val_of_single rfl i q
  hr1 := fun i q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- The head's product is 50000 × 128 times 128 × 64. -/
theorem plain3 : PlainDot dot_S50000x128_S128x64_S50000x64_1_0_0_1_n_n where
  hr := rfl
  hs := rfl
  hl0 := fun i q => by
    unfold DotDims.lhsIdx
    rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
    rfl
  hl1 := fun i q => dot_S50000x128_S128x64_S50000x64_1_0_0_1_n_n.lhsIdx_val_of_single rfl i q
  hr0 := fun i q => dot_S50000x128_S128x64_S50000x64_1_0_0_1_n_n.rhsIdx_val_of_single rfl i q
  hr1 := fun i q => by
    unfold DotDims.rhsIdx
    rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
    rfl

/-- THE REFERENCE'S RESULT is the network function of the ten arguments. -/
theorem result_eq (m : (ℓ : Loc nD τ sig) → Buf (Elt Ideal) ℓ) (c : Dev nD) :
    Cert.ReferenceIdeal.Value.res_main_v59 (F := Ideal) m c
      = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v59
  rw [host_sage_eq dot_S50000x64_S64x128_S50000x128_1_0_0_1_n_n plain1, host_sage_eq dot_S50000x128_S128x128_S50000x128_1_0_0_1_n_n plain2, host_lin_eq dot_S50000x128_S128x64_S50000x64_1_0_0_1_n_n plain3]
  unfold Cert.Net.net Cert.Net.hidden2 Cert.Net.hidden1 Cert.Net.aggregate128 Cert.Net.aggregate64 Cert.Net.degree Cert.Net.srcCol Cert.Net.dstCol Cert.Net.src Cert.Net.dst
  rfl

end Cert.RefValue

end
-- ==== Proof.lean ====
/-
  A two-layer mean-aggregating graph network with a linear head, on 50000 nodes and 1600000 edges: the kernel against
  its reference, on the extended reals.

  Both programs compute
      a1 = mean over incoming edges of x          h1 = max(a1 · Wl1 + x  · Wr1 + b1, 0)
      a2 = mean over incoming edges of h1         h2 = max(a2 · Wl2 + h1 · Wr2 + b2, 0)
      out = h2 · Wout + bout.
  The aggregations are the same chain of host operations in both (gather the source rows, sum them into the target
  rows, divide by the number of incoming edges raised to at least one) and are never opened: `Cert.Net` names them.
  The kernel does the three dense parts in three calls tiled into ten blocks of 5000 rows each, with operands narrowed
  to bf16 (the identity on extended reals), products into a zero accumulator, and the bias added after both products;
  the reference does them on the host as whole-array products with the bias added between the two products. Entry by
  entry both are `max((Σ A·Wl + Σ X·Wr) + b, 0)` resp. `Σ H·W + b`: the only law used is that addition of extended reals
  is commutative and associative, so the precondition (finite inputs) is not needed for the values.

  The pieces: `LibSageLayer` (a layer at an entry, the vector unit's way and the host's way), `Layer1` / `Layer2` /
  `Head` (each call's output array, from its blocks, as one function of the arrays it finds), `HostReads` (what the host
  leaves for each call), `KernelRun` (the kernel's run with its result array named), `KernelValue` (that array is
  `Net.net` of the arguments), `RefValue` (so is the reference's result).
-/
import proofs.«123377_j5153960755630_1_alg».proof.Defs
import proofs.«123377_j5153960755630_1_alg».proof.Proof.Gen.Kernel
import proofs.«123377_j5153960755630_1_alg».proof.Proof.Gen.Kernel.Skeleton
import proofs.«123377_j5153960755630_1_alg».proof.Proof.Gen.Kernel.Launch
import proofs.«123377_j5153960755630_1_alg».proof.Proof.Gen.Kernel.Points
import proofs.«123377_j5153960755630_1_alg».proof.Proof.Gen.Kernel.Frame
import proofs.«123377_j5153960755630_1_alg».proof.Proof.Gen.KernelIdeal
import proofs.«123377_j5153960755630_1_alg».proof.Proof.Gen.KernelIdeal.Skeleton
import proofs.«123377_j5153960755630_1_alg».proof.Proof.Gen.KernelIdeal.Launch
import proofs.«123377_j5153960755630_1_alg».proof.Proof.Gen.KernelIdeal.Points
import proofs.«123377_j5153960755630_1_alg».proof.Proof.Gen.KernelIdeal.Frame
import proofs.«123377_j5153960755630_1_alg».proof.Proof.Gen.ReferenceIdeal
import proofs.«123377_j5153960755630_1_alg».proof.Proof.Gen.ReferenceIdeal.Run
import proofs.«123377_j5153960755630_1_alg».proof.Proof.Gen.Pre_finite_inputs
import proofs.«123377_j5153960755630_1_alg».proof.Proof.KernelValue
import proofs.«123377_j5153960755630_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both idealized programs end with the network function of those
    arguments in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.RefValue.result_eq m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
